-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S16x4096 : Shape := ⟨2, ![16, 4096]⟩
abbrev S256x4096 : Shape := ⟨2, ![256, 4096]⟩
abbrev S8x4096 : Shape := ⟨2, ![8, 4096]⟩
abbrev S32x8x4096 : Shape := ⟨3, ![32, 8, 4096]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S256x4096_S256x4096_0_0 : ∀ a, (![0, 0] : Fin 2 → Nat) a + S256x4096.size a ≤ S256x4096.size a
  h_S256x4096 : 0 < S256x4096.numel
  shapeCasts_S256x4096_S32x8x4096 : S256x4096.ShapeCasts S32x8x4096
  reduces_S32x8x4096_S8x4096 : S32x8x4096.Reduces [0] S8x4096
  reducesTo_S16x4096_S_d0_1 : S16x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S16x4096.size a
  hwx0_2 : ∀ i : grid0.Coords, EltTy.bits .f32 = 32 ∨ (Rect.block (s := S16x4096) S8x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .i1⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts₀]

class Facts : Prop extends Facts₀ where

variable [Facts]
-- ==== Proof.KernelPieces.lean ====
/-
  What one run of the kernel body leaves behind, read as values. The body keeps an [8, 4096] accumulator in a scratch
  buffer that lives across grid points. At the first point of a core's run it stores the zero block and then the zero
  block plus the point's contribution; at every later point it stores the old accumulator plus the point's contribution;
  at the last point of the run it also copies the accumulator, as just stored, into the output block. Each of these
  buffers is written by covering stores at offset zero, so what it holds afterwards is the last store's value.
-/
import proofs.«132097_j13975823581342_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point of a run (neither its first nor its last): the accumulator ends at the old accumulator plus the
    point's contribution. -/
theorem scratch_B (c : Dev nD) (i : grid0.Coords) (a2 : Memref sig .tc .vmem S256x4096 .f32) (h2 : a2.IsWhole)
    (a3 : Memref sig .tc .vmem S256x4096 .f32) (h3 : a3.IsWhole) (a4 : Memref sig .tc .vmem S8x4096 .f32) (h4 : a4.IsWhole)
    (a5 : Memref sig .tc .vmem S8x4096 .f32) (h5 : a5.IsWhole) (hc0 : ¬cond0_0 i) (hc1 : ¬cond0_1 i)
    (x0 x1 : Vec F S256x4096 .f32) (xs : Vec F S8x4096 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S256x4096) hz,
    View.ld_unit_zero (S := S8x4096) hz]

/-- The last point of a run: the accumulator is updated in the same way; -/
theorem scratch_C (c : Dev nD) (i : grid0.Coords) (a2 : Memref sig .tc .vmem S256x4096 .f32) (h2 : a2.IsWhole)
    (a3 : Memref sig .tc .vmem S256x4096 .f32) (h3 : a3.IsWhole) (a4 : Memref sig .tc .vmem S8x4096 .f32) (h4 : a4.IsWhole)
    (a5 : Memref sig .tc .vmem S8x4096 .f32) (h5 : a5.IsWhole) (hc0 : ¬cond0_0 i) (hc1 : cond0_1 i)
    (x0 x1 : Vec F S256x4096 .f32) (xs : Vec F S8x4096 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S8x4096) hz]
  simp only [View.readAt_eq_ld, h2.read_unread, h3.read_unread, h5.read_unread, View.ld_unit_zero (S := S256x4096) hz,
    View.ld_unit_zero (S := S8x4096) hz]

/-- and the output block receives a copy of the accumulator as just updated. -/
theorem out_C (c : Dev nD) (i : grid0.Coords) (a2 : Memref sig .tc .vmem S256x4096 .f32) (h2 : a2.IsWhole)
    (a3 : Memref sig .tc .vmem S256x4096 .f32) (h3 : a3.IsWhole) (a4 : Memref sig .tc .vmem S8x4096 .f32) (h4 : a4.IsWhole)
    (a5 : Memref sig .tc .vmem S8x4096 .f32) (h5 : a5.IsWhole) (hc0 : ¬cond0_0 i) (hc1 : cond0_1 i)
    (x0 x1 : Vec F S256x4096 .f32) (xs : Vec F S8x4096 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S8x4096) hz, View.readCov_unit_zero (S := S8x4096) _ hz]
  simp only [View.readAt_eq_ld, h2.read_unread, h3.read_unread, h5.read_unread, View.ld_unit_zero (S := S256x4096) hz,
    View.ld_unit_zero (S := S8x4096) hz]

/-- The first point of a run: the accumulator is first set to the zero block, read back, and then updated, so it ends at
    the zero block plus the point's contribution. -/
theorem scratch_A (c : Dev nD) (i : grid0.Coords) (a2 : Memref sig .tc .vmem S256x4096 .f32) (h2 : a2.IsWhole)
    (a3 : Memref sig .tc .vmem S256x4096 .f32) (h3 : a3.IsWhole) (a4 : Memref sig .tc .vmem S8x4096 .f32) (h4 : a4.IsWhole)
    (a5 : Memref sig .tc .vmem S8x4096 .f32) (h5 : a5.IsWhole) (hc0 : cond0_0 i) (hc1 : ¬cond0_1 i)
    (x0 x1 : Vec F S256x4096 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x4096) hz, View.readCov_unit_zero (S := S8x4096) _ hz]
  simp only [View.readAt_eq_ld, h2.read_unread, h3.read_unread, View.ld_unit_zero (S := S256x4096) hz]

end Cert.KernelIdeal.Pieces

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.LossSpec.lean ====
/-
  The mathematics of the claim, with no program in sight. Both programs compute, from two [16384, 4096] arrays
  `X` and `Y`, one number: the sum over every entry of a term of `X - Y` at that entry — half the square of the
  difference where its absolute value is below a threshold, a multiple of the absolute value less a constant elsewhere —
  divided by 16384. The reference sums the 16384 × 4096 terms in one go. The kernel walks the rows in 64 blocks of 256,
  32 blocks to each of two runs; within a block it adds, for each of 8 residues `r` and each column, the 32 terms of the
  rows `8 g + r`; a run adds its 32 blocks' contributions into one [8, 4096] accumulator; the two accumulators are laid
  side by side as a [16, 4096] array of partial sums, which is then summed. Addition on the extended reals is
  commutative and associative, so the two totals agree: every row index is `256 (32 c + s) + 8 g + r` for exactly one
  run `c`, block `s`, group `g` and residue `r`.
-/
import Idealize.ShloMosaic.PureOps.Ideal
import Idealize.ShloMosaic.PureOps.Ideal.Laws
import Idealize.ShloMosaic.Lib.ValueIdx
import proofs.«132097_j13975823581342_2_alg».proof.Proof.LibSumBlocks

noncomputable section

namespace Cert.LossSpec

open Idealize.ShloMosaic Idealize.ShloMosaic.ValueIdx
open scoped BigOperators

/-- The two argument arrays' type. -/
abbrev Arr : Type := (⟨2, ![16384, 4096]⟩ : Shape).Idx → Ideal .f32

/-- The term of one entry: with `z = a - b`, half of `z²` where `|z|` is below the threshold, and the threshold
    times `|z|` less half the threshold elsewhere (the constants are the programs' own single-precision words, the same
    on both sides). -/
def term (a b : Ideal .f32) : Ideal .f32 :=
  Scalar.select
    (FloatOps.cmpf .olt (FloatOps.absf (FloatOps.subf a b)) (FloatOps.ofBits .f32 0x3C23D70A#32))
    (FloatOps.mulf (FloatOps.mulf (FloatOps.ofBits .f32 0x3F000000#32) (FloatOps.subf a b)) (FloatOps.subf a b))
    (FloatOps.mulf (FloatOps.ofBits .f32 0x3C23D70A#32)
      (FloatOps.subf (FloatOps.absf (FloatOps.subf a b)) (FloatOps.ofBits .f32 0x3BA3D70A#32)))

/-- The term at row `i`, column `l`, with the row a natural number (zero past the last row, which is never read). -/
def termAt (X Y : Arr) (i : ℕ) (l : Fin 4096) : EReal :=
  if h : i < 16384 then term (X (ix2 ⟨i, h⟩ l)) (Y (ix2 ⟨i, h⟩ l)) else 0

theorem termAt_of_lt (X Y : Arr) (i : Fin 16384) (l : Fin 4096) :
    termAt X Y i.val l = term (X (ix2 i l)) (Y (ix2 i l)) := dif_pos i.isLt

/-- What row block `n` contributes to the accumulator's entry `(r, l)`: the terms of its rows `8 g + r`. -/
def blockSum (X Y : Arr) (n r : ℕ) (l : Fin 4096) : EReal :=
  ∑ g : Fin 32, termAt X Y (256 * n + 8 * g.val + r) l

/-- The [16, 4096] array of partial sums: row `8 c + r` holds run `c`'s accumulator row `r`, the zero it starts from
    plus the contributions of the run's 32 row blocks. -/
def partials (X Y : Arr) : (⟨2, ![16, 4096]⟩ : Shape).Idx → Ideal .f32 :=
  fun i => FloatOps.ofBits (F := Ideal) .f32 0x00000000#32
    + ∑ s ∈ Finset.range 32, blockSum X Y (32 * ((i 0).val / 8) + s) ((i 0).val % 8) (i 1)

section Regroup
variable {M : Type*} [AddCommMonoid M]

theorem sum_64x256 (f : Fin 16384 → M) :
    ∑ u, f u = ∑ k : Fin 64, ∑ r : Fin 256, f ⟨256 * k.val + r.val, by have := k.isLt; have := r.isLt; omega⟩ :=
  Cert.SumBlocks.sum_blocks 64 256 f
theorem sum_32x8 (f : Fin 256 → M) :
    ∑ u, f u = ∑ k : Fin 32, ∑ r : Fin 8, f ⟨8 * k.val + r.val, by have := k.isLt; have := r.isLt; omega⟩ :=
  Cert.SumBlocks.sum_blocks 32 8 f
theorem sum_2x32 (f : Fin 64 → M) :
    ∑ u, f u = ∑ k : Fin 2, ∑ r : Fin 32, f ⟨32 * k.val + r.val, by have := k.isLt; have := r.isLt; omega⟩ :=
  Cert.SumBlocks.sum_blocks 2 32 f
theorem sum_2x8 (f : Fin 16 → M) :
    ∑ u, f u = ∑ k : Fin 2, ∑ r : Fin 8, f ⟨8 * k.val + r.val, by have := k.isLt; have := r.isLt; omega⟩ :=
  Cert.SumBlocks.sum_blocks 2 8 f

/-- The regrouping of the 16384 rows: summing, over the 16 rows `8 c + r` of the partial sums, the 32 blocks `s` of
    run `c` and the 32 groups `g` of each block at residue `r`, visits every row `256 (32 c + s) + 8 g + r` once. -/
theorem sum_regroup (f : ℕ → M) :
    ∑ R : Fin 16, ∑ s ∈ Finset.range 32, ∑ g : Fin 32, f (256 * (32 * (R.val / 8) + s) + 8 * g.val + R.val % 8)
      = ∑ a : Fin 16384, f a.val := by
  have hR : ∑ a : Fin 16384, f a.val
      = ∑ c : Fin 2, ∑ s : Fin 32, ∑ g : Fin 32, ∑ r : Fin 8, f (256 * (32 * c.val + s.val) + (8 * g.val + r.val)) := by
    rw [sum_64x256 (fun a : Fin 16384 => f a.val), sum_2x32]
    refine Finset.sum_congr rfl fun c _ => Finset.sum_congr rfl fun s _ => ?_
    exact sum_32x8 (fun q : Fin 256 => f (256 * (32 * c.val + s.val) + q.val))
  have hL : ∑ R : Fin 16, ∑ s ∈ Finset.range 32, ∑ g : Fin 32, f (256 * (32 * (R.val / 8) + s) + 8 * g.val + R.val % 8)
      = ∑ c : Fin 2, ∑ r : Fin 8, ∑ s : Fin 32, ∑ g : Fin 32, f (256 * (32 * c.val + s.val) + (8 * g.val + r.val)) := by
    rw [sum_2x8]
    refine Finset.sum_congr rfl fun c _ => Finset.sum_congr rfl fun r _ => ?_
    rw [Finset.sum_range]
    refine Finset.sum_congr rfl fun s _ => Finset.sum_congr rfl fun g _ => congrArg f ?_
    have := c.isLt; have := r.isLt
    show 256 * (32 * ((8 * c.val + r.val) / 8) + s.val) + 8 * g.val + (8 * c.val + r.val) % 8 = _
    omega
  rw [hL, hR]
  refine Finset.sum_congr rfl fun c _ => ?_
  rw [Finset.sum_comm]
  refine Finset.sum_congr rfl fun s _ => ?_
  rw [Finset.sum_comm]

end Regroup

/-- The sum of all the partial sums is the sum of all the terms. -/
theorem sum_partials (X Y : Arr) :
    ∑ i, partials X Y i = ∑ j : (⟨2, ![16384, 4096]⟩ : Shape).Idx, term (X j) (Y j) := by
  rw [sum_idx2, sum_idx2, Finset.sum_comm, Finset.sum_comm (s := (Finset.univ : Finset (Fin 16384)))]
  refine Finset.sum_congr rfl fun l _ => ?_
  have h := sum_regroup (fun i => termAt X Y i l)
  refine Eq.trans ?_ (h.trans (Finset.sum_congr rfl fun a _ => termAt_of_lt X Y a l))
  refine Finset.sum_congr rfl fun R _ => ?_
  show FloatOps.ofBits (F := Ideal) .f32 0x00000000#32 + ∑ s ∈ Finset.range 32, blockSum X Y (32 * (R.val / 8) + s) (R.val % 8) l = _
  rw [Ideal.ofBits_def, Ideal.ofBits_zero_f32, zero_add]
  rfl

end Cert.LossSpec

end
-- ==== Proof.KernelPayload.lean ====
/-
  The body's arithmetic read entry by entry over the extended reals. The value the body stores into the accumulator is
  the accumulator it loaded plus, at entry `(r, l)`, the sum over the 32 groups `g` of the term of the two input blocks
  at row `8 g + r`, column `l`: the body computes the 256 × 4096 terms entry by entry, views them as 32 groups of 8
  rows (row `8 g + r` becomes group `g`, row `r`), and sums over the groups. The block the accumulator is reset to
  is zero at every entry.
-/
import proofs.«132097_j13975823581342_2_alg».proof.Proof.Gen.KernelIdeal.Skeleton
import proofs.«132097_j13975823581342_2_alg».proof.Proof.LossSpec
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.LossSpec

/-- The reset block is the zero word at every entry. -/
theorem reset_apply (j : S8x4096.Idx) : k0_pay1 (F := Ideal) j = FloatOps.ofBits (F := Ideal) .f32 0x00000000#32 := rfl

/-- The 256 × 4096 terms viewed as 32 groups of 8 rows: group `g`, row `r` is row `8 g + r`. -/
theorem groups_apply (v : FVec Ideal S256x4096 .f32) (g : Fin 32) (r : Fin 8) (l : Fin 4096)
    (hrow : 8 * g.val + r.val < 256) :
    shapeCast S32x8x4096 v shapeCasts_S256x4096_S32x8x4096 (ix3 g r l) = v (ix2 ⟨8 * g.val + r.val, hrow⟩ l) := by
  refine shapeCast_apply v _ (ix3 g r l) (ix2 ⟨8 * g.val + r.val, hrow⟩ l) ?_
  rw [Shape.rowMajor_val_two, Shape.rowMajor_val_three]
  show (8 * g.val + r.val) * 4096 + l.val = (g.val * 8 + r.val) * 4096 + l.val
  omega

/-- The stored accumulator at entry `(r, l)`: the loaded accumulator there plus the 32 terms of rows `8 g + r`. -/
theorem update_apply (x y : Vec Ideal S256x4096 .f32) (acc : Vec Ideal S8x4096 .f32) (r : Fin 8) (l : Fin 4096) :
    k0_pay2 (F := Ideal) x y acc (ix2 r l)
      = acc (ix2 r l) + ∑ g : Fin 32,
          term (x (ix2 ⟨8 * g.val + r.val, by have := g.isLt; have := r.isLt; omega⟩ l))
            (y (ix2 ⟨8 * g.val + r.val, by have := g.isLt; have := r.isLt; omega⟩ l)) := by
  unfold k0_pay2
  dsimp only
  refine (congrFun (shapeCast_self _ _) (ix2 r l)).trans ?_
  refine congrArg (acc (ix2 r l) + ·) ?_
  refine (Ideal.multiReduction_add_single _ 0x00000000#32 reduces_S32x8x4096_S8x4096 (.inl rfl) rfl (ix2 r l)).trans ?_
  show ∑ g : Fin 32, _ = _
  refine Finset.sum_congr rfl fun g _ => ?_
  have e : reduces_S32x8x4096_S8x4096.lift (ix2 r l) g = ix3 g r l := by
    funext a; match a with | ⟨0, _⟩ => rfl | ⟨1, _⟩ => rfl | ⟨2, _⟩ => rfl
  rw [e]
  exact groups_apply _ g r l _

/-- The same with the two input blocks known to be row block `n` of two whole arrays `X`, `Y`: the stored accumulator
    is the loaded one plus that block's contribution. -/
theorem update_block (X Y : Arr) (x y : Vec Ideal S256x4096 .f32) (acc : Vec Ideal S8x4096 .f32) (n : ℕ) (hn : n < 64)
    (hx : ∀ (q : Fin 256) (l : Fin 4096), x (ix2 q l) = X (ix2 ⟨256 * n + q.val, by have := q.isLt; omega⟩ l))
    (hy : ∀ (q : Fin 256) (l : Fin 4096), y (ix2 q l) = Y (ix2 ⟨256 * n + q.val, by have := q.isLt; omega⟩ l))
    (j : S8x4096.Idx) :
    k0_pay2 (F := Ideal) x y acc j = acc j + blockSum X Y n (j 0).val (j 1) := by
  obtain ⟨r, l, rfl⟩ : ∃ (r : Fin 8) (l : Fin 4096), j = ix2 r l := ⟨j 0, j 1, eq_ix2 j⟩
  rw [update_apply]
  refine congrArg (acc (ix2 r l) + ·) ?_
  show _ = ∑ g : Fin 32, termAt X Y (256 * n + 8 * g.val + r.val) l
  refine Finset.sum_congr rfl fun g _ => ?_
  rw [hx, hy]
  have hlt : 256 * n + 8 * g.val + r.val < 16384 := by have := g.isLt; have := r.isLt; omega
  refine Eq.trans ?_ (termAt_of_lt X Y ⟨256 * n + 8 * g.val + r.val, hlt⟩ l).symm
  have e : (⟨256 * n + (8 * g.val + r.val), by have := g.isLt; have := r.isLt; omega⟩ : Fin 16384)
      = ⟨256 * n + 8 * g.val + r.val, hlt⟩ := Fin.ext (by show 256 * n + (8 * g.val + r.val) = 256 * n + 8 * g.val + r.val; omega)
  rw [e]

end Cert.KernelIdeal.Payload

end
-- ==== Proof.KernelAccum.lean ====
/-
  The accumulator along a run, in closed form. Grid point `t` (of 64) reads row block `t` of each argument array:
  rows `256 t … 256 t + 255`. The points `32 c … 32 c + 31` form run `c`: the accumulator is reset at the run's first
  point and every point adds its row block's contribution, so after point `t` the accumulator's entry `(r, l)` is the
  zero it was reset to plus the contributions of the blocks `32 (t / 32) … t`; the run's last point copies exactly that
  into the output block.
-/
import proofs.«132097_j13975823581342_2_alg».proof.Proof.KernelPieces
import proofs.«132097_j13975823581342_2_alg».proof.Proof.KernelPayload

noncomputable section

open Idealize.ShloMosaic Idealize.ShloMosaic.TcCoe Idealize.ShloMosaic.ValueIdx Idealize.SL.Sem
open Idealize.ShloMosaic.Pipeline (Dat)

namespace Cert.KernelIdeal.Accum

open Cert.KernelIdeal Cert.KernelIdeal.Gen Cert.LossSpec

variable (m : (ℓ : Loc nD τ sig) → Buf (Elt Ideal) ℓ) (c : Dev nD)

/-- The two argument arrays as the run finds them. -/
abbrev argX : Arr := m ((c.tc : Thread nD τ).loc main_arg0)
abbrev argY : Arr := m ((c.tc : Thread nD τ).loc main_arg1)

/-- The printed index maps, decided over the grid: both input windows are at row block `t`, column block 0. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The first input block at point `t` is rows `256 t + q` of the first argument. -/
theorem blockX (t : Fin cfg0.N) (q : Fin 256) (l : Fin 4096) (h : 256 * t.val + q.val < 16384) :
    iblk m c 0 t (ix2 q l) = argX m c (ix2 ⟨256 * t.val + q.val, h⟩ l) := by
  obtain ⟨h0, h1, -, -⟩ := idx_in t
  unfold iblk
  rw [View.read_apply]
  show V m c main_arg0 _ = _
  rw [V_main_arg0]
  refine congrArg _ (funext fun a => Fin.ext ?_)
  match a with
  | ⟨0, _⟩ => show win0_0.index t 0 * 256 + 1 * q.val = 256 * t.val + q.val; rw [h0]; omega
  | ⟨1, _⟩ => show win0_0.index t 1 * 4096 + 1 * l.val = l.val; rw [h1]; omega

/-- The second input block at point `t` is rows `256 t + q` of the second argument. -/
theorem blockY (t : Fin cfg0.N) (q : Fin 256) (l : Fin 4096) (h : 256 * t.val + q.val < 16384) :
    iblk m c 1 t (ix2 q l) = argY m c (ix2 ⟨256 * t.val + q.val, h⟩ l) := by
  obtain ⟨-, -, h0, h1⟩ := idx_in t
  unfold iblk
  rw [View.read_apply]
  show V m c main_arg1 _ = _
  rw [V_main_arg1]
  refine congrArg _ (funext fun a => Fin.ext ?_)
  match a with
  | ⟨0, _⟩ => show win0_1.index t 0 * 256 + 1 * q.val = 256 * t.val + q.val; rw [h0]; omega
  | ⟨1, _⟩ => show win0_1.index t 1 * 4096 + 1 * l.val = l.val; rw [h1]; omega

/-- The accumulator after point `n`. -/
def accAfter (n : ℕ) (h : n < cfg0.N) : Vec Ideal S8x4096 .f32 := (outsAt0 m c n h).2

/-- One point's update of the accumulator: the accumulator it finds plus the point's contribution. -/
def step (t : Fin cfg0.N) (acc : Vec Ideal S8x4096 .f32) : Vec Ideal S8x4096 .f32 :=
  k0_pay2 (iblk m c 0 t) (iblk m c 1 t) acc

/-- What a run's first point leaves: the reset block updated. -/
def resetStep (n : ℕ) (h : n < cfg0.N) : Vec Ideal S8x4096 .f32 := step m c ⟨n, h⟩ (k0_pay1 (F := Ideal))

/-- What any later point leaves: the accumulator before it updated. -/
def addStep (n : ℕ) (h : n < cfg0.N) (acc : Vec Ideal S8x4096 .f32) : Vec Ideal S8x4096 .f32 := step m c ⟨n, h⟩ acc

theorem first_point (t : Fin cfg0.N) (h0 : t.val % 32 = 0) :
    (outsAt0 m c t.val t.isLt).2 = step m c t (k0_pay1 (F := Ideal)) := by
  have h1 : ¬ t.val % 32 = 31 := by omega
  unfold step
  rw [outsAt0_A m c t h0 h1]
  dsimp only
  exact Pieces.scratch_A (F := Ideal) c (grid0.coords t) (ms0_0 t) (hs0_0 t) (ms0_1 t) (hs0_1 t) (ms0_2 t) (hs0_2 t) scM0_0
    (Memref.isWhole_whole _) ((hcond0_0 t).mpr h0) (fun hh => h1 ((hcond0_1 t).mp hh)) (iblk m c 0 t) (iblk m c 1 t)

theorem later_point (t : Fin cfg0.N) (h0 : ¬ t.val % 32 = 0) :
    (outsAt0 m c t.val t.isLt).2
      = step m c t (outsAt0 m c (t.val - 1) (Nat.lt_of_le_of_lt (Nat.sub_le _ _) t.isLt)).2 := by
  by_cases h1 : t.val % 32 = 31
  · unfold step
    rw [outsAt0_C m c t h0 h1]
    dsimp only
    exact Pieces.scratch_C (F := Ideal) c (grid0.coords t) (ms0_0 t) (hs0_0 t) (ms0_1 t) (hs0_1 t) (ms0_2 t) (hs0_2 t) scM0_0
      (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2
  · unfold step
    rw [outsAt0_B m c t h0 h1]
    dsimp only
    exact Pieces.scratch_B (F := Ideal) c (grid0.coords t) (ms0_0 t) (hs0_0 t) (ms0_1 t) (hs0_1 t) (ms0_2 t) (hs0_2 t) scM0_0
      (Memref.isWhole_whole _) (fun hh => h0 ((hcond0_0 t).mp hh)) (fun hh => h1 ((hcond0_1 t).mp hh)) (iblk m c 0 t)
      (iblk m c 1 t) (outsAt0 m c (t.val - 1) (Nat.lt_of_le_of_lt (Nat.sub_le _ _) t.isLt)).2

/-- At a run's last point the output block is left holding the accumulator as that point leaves it. -/
theorem out_last (t : Fin cfg0.N) (h1 : t.val % 32 = 31) :
    (outsAt0 m c t.val t.isLt).1 = accAfter m c t.val t.isLt := by
  have h0 : ¬ t.val % 32 = 0 := by omega
  unfold accAfter
  rw [outsAt0_C m c t h0 h1]
  dsimp only
  exact (Pieces.out_C (F := Ideal) c (grid0.coords t) (ms0_0 t) (hs0_0 t) (ms0_1 t) (hs0_1 t) (ms0_2 t) (hs0_2 t) scM0_0
      (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2).trans
    (Pieces.scratch_C (F := Ideal) c (grid0.coords t) (ms0_0 t) (hs0_0 t) (ms0_1 t) (hs0_1 t) (ms0_2 t) (hs0_2 t) scM0_0
      (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2).symm

theorem acc_first (n : ℕ) (h : n < cfg0.N) (h0 : n % 32 = 0) : accAfter m c n h = resetStep m c n h :=
  first_point m c ⟨n, h⟩ h0

theorem acc_next (n : ℕ) (h : n + 1 < cfg0.N) (h0 : ¬(n + 1) % 32 = 0) :
    accAfter m c (n + 1) h = addStep m c (n + 1) h (accAfter m c n (Nat.lt_of_succ_lt h)) :=
  later_point m c ⟨n + 1, h⟩ h0

/-- The accumulator after point `t`, entry by entry: the zero word plus the contributions of the row blocks
    `32 (t / 32) … t` of the point's run. -/
theorem acc_closed (t : ℕ) (ht : t < cfg0.N) (j : S8x4096.Idx) :
    accAfter m c t ht j = FloatOps.ofBits (F := Ideal) .f32 0x00000000#32
      + ∑ s ∈ Finset.range (t % 32 + 1), blockSum (argX m c) (argY m c) (32 * (t / 32) + s) (j 0).val (j 1) := by
  have hN : cfg0.N = 64 := N_0
  have h' : 32 * (t / 32) + t % 32 < cfg0.N := by rw [Nat.div_add_mod]; exact ht
  rw [Pipeline.eq_accAt_of_mod (accAfter m c) 32 (resetStep m c) (addStep m c) (acc_first m c) (acc_next m c)
    (by norm_num) t ht h']
  refine Pipeline.accAt_add_apply (resetStep m c) (addStep m c)
    (fun _ => FloatOps.ofBits (F := Ideal) .f32 0x00000000#32)
    (fun n i => blockSum (argX m c) (argY m c) n (i 0).val (i 1)) (32 * (t / 32)) 31 ?_ ?_ (t % 32) (by omega) h' j
  · intro h i
    have hb : 32 * (t / 32) < 64 := by rw [← hN]; exact h
    exact Payload.update_block (argX m c) (argY m c) (iblk m c 0 ⟨_, h⟩) (iblk m c 1 ⟨_, h⟩) (k0_pay1 (F := Ideal)) _ hb
      (fun q l => blockX m c ⟨_, h⟩ q l _) (fun q l => blockY m c ⟨_, h⟩ q l _) i
  · intro n h acc i _ _
    have hb : n < 64 := by rw [← hN]; exact h
    exact Payload.update_block (argX m c) (argY m c) (iblk m c 0 ⟨n, h⟩) (iblk m c 1 ⟨n, h⟩) acc n hb
      (fun q l => blockX m c ⟨n, h⟩ q l _) (fun q l => blockY m c ⟨n, h⟩ q l _) i

end Cert.KernelIdeal.Accum

end
-- ==== Proof.KernelArray.lean ====
/-
  The kernel's result array after the whole grid. The output window's block at point `t` is rows `8 (t / 32) …
  8 (t / 32) + 7` of the [16, 4096] result, and it is written back only at the last point of each run, `t = 32 c + 31`.
  What is written back there is the run's accumulator, so row `8 c + r` of the result is the zero word plus the 32
  contributions of run `c` at residue `r`: the array of partial sums. The two written blocks cover the result.
-/
import proofs.«132097_j13975823581342_2_alg».proof.Proof.KernelAccum

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.LossSpec Cert.KernelIdeal.Accum

variable (m : (ℓ : Loc nD τ sig) → Buf (Elt Ideal) ℓ) (c : Dev nD)

/-- The partial sums at an entry whose row is `8 k + r`. -/
theorem partials_apply (X Y : Arr) (i : (⟨2, ![16, 4096]⟩ : Shape).Idx) (k r : ℕ) (l : Fin 4096) (hr : r < 8)
    (h0 : (i 0).val = 8 * k + r) (h1 : (i 1).val = l.val) :
    partials X Y i = FloatOps.ofBits (F := Ideal) .f32 0x00000000#32
      + ∑ s ∈ Finset.range 32, blockSum X Y (32 * k + s) r l := by
  have e1 : i 1 = l := Fin.ext h1
  have hk : (8 * k + r) / 8 = k := by omega
  have hm : (8 * k + r) % 8 = r := by omega
  unfold partials
  rw [h0, e1, hk, hm]

/-- The printed index map of the output window, decided over the grid: row block `t / 32`, column block 0. -/
theorem idx_out : ∀ t : Fin cfg0.N, win0_2.index t (0 : Fin 2) = t.val / 32 ∧ win0_2.index t (1 : Fin 2) = 0 :=
  (by decide +kernel : ∀ t : Fin grid0.N, _)

/-- The array of partial sums, as contents of the kernel's result array. -/
abbrev sums : Buf (Elt Ideal) ((c.tc : Thread nD τ).loc main_v0) := partials (argX m c) (argY m c)

/-- What a run's last point writes back is its block of the array of partial sums. -/
theorem flushed_eq (t : Fin cfg0.N) (hf : (cfg0.win 2).flush t = true) :
    (dats m 0 c).flushed 2 t = ((cfg0.win 2).blk t).view.read (Elt Ideal) (sums m c) := by
  have h31 : t.val % 32 = 31 := (flush0_2 t).mp hf
  obtain ⟨e0, e1⟩ := idx_out t
  show (cfg0.win 2).cut (grid0.coords t) ((dats m 0 c).after 2 t) = _
  rw [after0_2, out_last m c t h31]
  funext j
  show accAfter m c t.val t.isLt j = partials (argX m c) (argY m c) (((cfg0.win 2).blk t).view.emb j)
  rw [acc_closed, h31]
  refine (partials_apply (argX m c) (argY m c) _ (t.val / 32) (j 0).val (j 1) (j 0).isLt ?_ ?_).symm
  · show win0_2.index t 0 * 8 + 1 * (j 0).val = 8 * (t.val / 32) + (j 0).val
    rw [e0]; omega
  · show win0_2.index t 1 * 4096 + 1 * (j 1).val = (j 1).val
    rw [e1]; omega

/-- An index of the result is in point `t`'s block iff each coordinate is in the block's range on its axis. -/
theorem mem_blk (t : Fin cfg0.N) (i : S16x4096.Idx) :
    i ∈ ((cfg0.win 2).blk t).view.set ↔ ∀ a : Fin 2, win0_2.index t a * S8x4096.size a ≤ (i a).val
      ∧ (i a).val < win0_2.index t a * S8x4096.size a + S8x4096.size a := by
  show i ∈ ((View.whole main_v0).slice (win0_2.rect t)).set ↔ _
  rw [View.set_slice_whole, Rect.mem_set_unit]
  exact Iff.rfl

/-- Every entry of the result lies in the block written back at the last point of its run. -/
theorem cover (i : S16x4096.Idx) :
    ∃ t : Fin cfg0.N, (cfg0.win 2).flush t = true ∧ i ∈ ((cfg0.win 2).blk t).view.set := by
  have hN : cfg0.N = 64 := N_0
  have hi0 : (i 0).val < 16 := (i 0).isLt
  have hi1 : (i 1).val < 4096 := (i 1).isLt
  obtain ⟨t, ht⟩ : ∃ t : Fin cfg0.N, t.val = 32 * ((i 0).val / 8) + 31 := ⟨⟨32 * ((i 0).val / 8) + 31, by rw [hN]; omega⟩, rfl⟩
  obtain ⟨e0, e1⟩ := idx_out t
  refine ⟨t, (flush0_2 t).mpr (by rw [ht]; omega), ?_⟩
  rw [mem_blk]
  intro a
  match a with
  | ⟨0, _⟩ =>
    show win0_2.index t 0 * 8 ≤ (i 0).val ∧ (i 0).val < win0_2.index t 0 * 8 + 8
    rw [e0, ht]; omega
  | ⟨1, _⟩ =>
    show win0_2.index t 1 * 4096 ≤ (i 1).val ∧ (i 1).val < win0_2.index t 1 * 4096 + 4096
    rw [e1]; omega

/-- So the result array ends holding the partial sums. -/
theorem final : (dats m 0 c).arrAt 2 cfg0.N = sums m c :=
  (dats m 0 c).arrAt_eq_of_cover 2 (sums m c) (flushed_eq m c) (cover)

end Cert.KernelIdeal.Result

end
-- ==== Proof.LossValue.lean ====
/-
  The one number both programs compute, as a function of the two argument arrays: the sum of all the terms, added to
  the zero word the sums start from, divided by the word of 16384.
-/
import proofs.«132097_j13975823581342_2_alg».proof.Proof.LossSpec

noncomputable section

namespace Cert.LossSpec

open Idealize.ShloMosaic

/-- The mean loss over the extended reals (a rank-0 array: one entry). -/
def meanLoss (X Y : Arr) : (⟨0, ![]⟩ : Shape).Idx → Ideal .f32 := fun _ =>
  FloatOps.hostDivf
    (FloatOps.ofBits (F := Ideal) .f32 0x00000000#32 + ∑ j : (⟨2, ![16384, 4096]⟩ : Shape).Idx, term (X j) (Y j))
    (FloatOps.ofBits (F := Ideal) .f32 0x46800000#32)

end Cert.LossSpec

end
-- ==== Proof.KernelRun.lean ====
/-
  The kernel's whole program, read: after the call the result array holds the partial sums, and the host lines that
  follow sum every entry of it from the zero word and divide by the word of 16384. Since the partial sums add up to the
  sum of all the terms, the program's result is the mean loss of its two arguments.
-/
import proofs.«132097_j13975823581342_2_alg».proof.Proof.KernelArray
import proofs.«132097_j13975823581342_2_alg».proof.Proof.LossValue
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Run

open Cert.KernelIdeal Cert.KernelIdeal.Gen Cert.LossSpec Cert.KernelIdeal.Accum

variable (m : (ℓ : Loc nD τ sig) → Buf (Elt Ideal) ℓ) (c : Dev nD)

/-- The host lines after the call, applied to an array of partial sums: the sum of every entry from the zero word,
    divided by the word of 16384. -/
def tail (A : (⟨S16x4096, .f32⟩ : BufTy).Contents (Elt Ideal)) : (⟨S_, .f32⟩ : BufTy).Contents (Elt Ideal) :=
  Host.divf (F := Ideal)
    (Host.reduceAdd (F := Ideal) A (constant (F := Ideal) S_ .f32 0x00000000#32) reducesTo_S16x4096_S_d0_1 h_S_)
    (constant (F := Ideal) S_ .f32 0x46800000#32)

/-- The tail of an array, at its one entry: the zero word plus the sum of every entry, divided by the word of 16384. -/
theorem tail_apply (A : (⟨S16x4096, .f32⟩ : BufTy).Contents (Elt Ideal)) (i : S_.Idx) :
    tail A i = FloatOps.hostDivf (FloatOps.ofBits (F := Ideal) .f32 0x00000000#32 + ∑ k : S16x4096.Idx, A k)
      (FloatOps.ofBits (F := Ideal) .f32 0x46800000#32) := by
  unfold tail
  show FloatOps.hostDivf (Host.reduceAdd (F := Ideal) A (constant (F := Ideal) S_ .f32 0x00000000#32)
    reducesTo_S16x4096_S_d0_1 h_S_ i) _ = _
  refine congrArg (fun s => FloatOps.hostDivf s (FloatOps.ofBits (F := Ideal) .f32 0x46800000#32)) ?_
  simp only [Host.reduceAdd, Ideal.hostReduceAdd_def]
  exact Ideal.hostReduceAdd_total reducesTo_S16x4096_S_d0_1 (fun b => b.elim0) A _ i

/-- The tail of the partial sums is the mean loss: the partial sums add up to the sum of all the terms. -/
theorem tail_partials (X Y : Arr) : tail (partials X Y) = meanLoss X Y := by
  funext i
  rw [tail_apply, sum_partials]
  rfl

/-- What the host lines after the call leave in the program's result: the tail of the partial sums. -/
theorem tail_eq : Pipeline.afterTail₀ cfgs (dats m) 0 (V0 m) [hostOps1] c main_v2 = tail (Result.sums m c) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v0) = Result.sums m c :=
    (Pipeline.withArrays_arr spec0 launch0.win.arr_inj c _ _ 2).trans (Result.final m c)
  unfold tail
  rw [e]

/-- The run, read: on every device the program ends with its result at the mean loss of its two arguments, which are
    unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v2) = meanLoss (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans
          ((tail_eq m c).trans (tail_partials (argX m c) (argY m c))),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Run

end
-- ==== Proof.ReferenceValue.lean ====
/-
  The reference, read entry by entry over the extended reals: it forms the array of terms of `X - Y` with the same
  operations and the same constants as the kernel (the host's absolute value is the kernel's), sums every entry from
  the zero word, and divides by the word of 16384. That is the mean loss.
-/
import proofs.«132097_j13975823581342_2_alg».proof.Proof.Gen.ReferenceIdeal.Read
import proofs.«132097_j13975823581342_2_alg».proof.Proof.LossValue

noncomputable section

open Idealize.ShloMosaic Idealize.ShloMosaic.ValueIdx

namespace Cert.ReferenceIdeal.RefValue

open Cert.ReferenceIdeal Cert.ReferenceIdeal.Read Cert.LossSpec

/-- The reference's selected array is the term, entry by entry. -/
theorem terms_apply (x0 x1 : (⟨S16384x4096, .f32⟩ : BufTy).Contents (Elt Ideal)) (j : S16384x4096.Idx) :
    val_main_v11 (F := Ideal) x0 x1 j = term (x0 j) (x1 j) := by
  rw [val_main_v11_apply, val_main_v3_apply, val_main_v6_apply, val_main_v10_apply, val_main_v5_apply,
    val_main_v8_apply, val_main_v1_apply, val_main_v0_apply, val_main_v2_apply, val_main_v4_apply, val_main_v7_apply,
    val_main_v9_apply, val_main_cst_apply, val_main_cst_0_apply, val_main_cst_1_apply, val_main_cst_2_apply]
  rfl

/-- The reference's result is the mean loss of its two arguments. -/
theorem result_eq (x0 x1 : (⟨S16384x4096, .f32⟩ : BufTy).Contents (Elt Ideal)) :
    val_main_v13 (F := Ideal) x0 x1 = meanLoss x0 x1 := by
  funext i
  rw [val_main_v13_apply, val_main_v12_apply, val_main_cst_4_apply, val_main_cst_3_apply]
  unfold meanLoss
  refine congrArg (fun s => FloatOps.hostDivf (FloatOps.ofBits (F := Ideal) .f32 0x00000000#32 + s)
    (FloatOps.ofBits (F := Ideal) .f32 0x46800000#32)) ?_
  exact Finset.sum_congr rfl fun j _ => terms_apply x0 x1 j

end Cert.ReferenceIdeal.RefValue

end
-- ==== Proof.lean ====
/-
  The claim: the kernel, its idealization and the reference each run to the end without a fault and leave their two
  arguments unchanged; the idealization rewrote nothing; and over the extended reals the idealized kernel and the
  idealized reference, started from memories that agree on the two arguments, end with the same result.

  The mathematics of the last part. Both programs compute the mean, over the 16384 rows, of the total of a term of
  `X - Y` over all 16384 × 4096 entries: half the squared difference where its absolute value is under a threshold, a
  multiple of the absolute value less a constant elsewhere, with the same constants on both sides. The reference sums
  all the terms at once and divides by 16384. The kernel cuts the rows into 64 blocks of 256, adds each block's terms
  into an [8, 4096] accumulator by groups of 8 rows, keeps one accumulator for each half of the blocks, writes the two
  accumulators side by side into a [16, 4096] array, and then sums that array and divides by 16384. Every row is
  `256 (32 c + s) + 8 g + r` for exactly one half `c`, block `s`, group `g` and residue `r`, and addition on the
  extended reals is commutative and associative, so the two totals are the same sum in two arrangements. No entry needs
  to be finite for that, so the precondition is not used.
-/
import proofs.«132097_j13975823581342_2_alg».proof.Defs
import proofs.«132097_j13975823581342_2_alg».proof.Proof.Gen.Kernel
import proofs.«132097_j13975823581342_2_alg».proof.Proof.Gen.Kernel.Skeleton
import proofs.«132097_j13975823581342_2_alg».proof.Proof.Gen.Kernel.Launch
import proofs.«132097_j13975823581342_2_alg».proof.Proof.Gen.Kernel.Points
import proofs.«132097_j13975823581342_2_alg».proof.Proof.Gen.Kernel.Frame
import proofs.«132097_j13975823581342_2_alg».proof.Proof.Gen.KernelIdeal
import proofs.«132097_j13975823581342_2_alg».proof.Proof.Gen.KernelIdeal.Skeleton
import proofs.«132097_j13975823581342_2_alg».proof.Proof.Gen.KernelIdeal.Launch
import proofs.«132097_j13975823581342_2_alg».proof.Proof.Gen.KernelIdeal.Points
import proofs.«132097_j13975823581342_2_alg».proof.Proof.Gen.KernelIdeal.Frame
import proofs.«132097_j13975823581342_2_alg».proof.Proof.Gen.ReferenceIdeal
import proofs.«132097_j13975823581342_2_alg».proof.Proof.Gen.Pre_finite_inputs
import proofs.«132097_j13975823581342_2_alg».proof.Proof.Gen.ReferenceIdeal.Run
import proofs.«132097_j13975823581342_2_alg».proof.Proof.Gen.ReferenceIdeal.Read
import proofs.«132097_j13975823581342_2_alg».proof.Proof.KernelRun
import proofs.«132097_j13975823581342_2_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end at the mean loss of the (agreeing) arguments. -/
theorem algebraic : Cert.algebraic_KernelIdeal_ReferenceIdeal := by
  intro m ρ m' ρ' _ hagree
  refine ⟨fun c => Cert.LossSpec.meanLoss (Cert.KernelIdeal.Accum.argX m c) (Cert.KernelIdeal.Accum.argY m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
